-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x4 : Shape := ⟨2, ![4194304, 4]⟩
abbrev S_ : Shape := ⟨0, ![]⟩

class Facts : Prop where
  bcast_S_S4194304x4 : S_.BroadcastsInDim S4194304x4 (![] : Fin 0 → Fin S4194304x4.rank)
  reducesTo_S4194304x4_S_d0_1 : S4194304x4.ReducesTo [0, 1] S_
  h_S_ : 0 < S_.numel

variable [Facts]

def fn {F : FTy → Type} [FloatOps F] (main_arg0 : FVec F S4194304x4 .f32) (main_arg1 : FVec F S4194304x4 .f32) : IVec S_ 1 :=
  let main_v0 : FVec F S4194304x4 .f32 := Host.absf main_arg0
  let main_cst : FVec F S_ .f32 := constant S_ .f32 0x7F800000#32
  let main_v1 : FVec F S4194304x4 .f32 := broadcastInDim S4194304x4 ![] bcast_S_S4194304x4 main_cst
  let main_v2 : IVec S4194304x4 1 := cmpf .olt main_v0 main_v1
  let main_c : IVec S_ 1 := constantI S_ 1 1#1
  let main_v3 : IVec S_ 1 := (fun x v => Host.reduce IntOp.andi x v reducesTo_S4194304x4_S_d0_1 h_S_) main_v2 main_c
  let main_v4 : FVec F S4194304x4 .f32 := Host.absf main_arg1
  let main_cst_0 : FVec F S_ .f32 := constant S_ .f32 0x7F800000#32
  let main_v5 : FVec F S4194304x4 .f32 := broadcastInDim S4194304x4 ![] bcast_S_S4194304x4 main_cst_0
  let main_v6 : IVec S4194304x4 1 := cmpf .olt main_v4 main_v5
  let main_c_1 : IVec S_ 1 := constantI S_ 1 1#1
  let main_v7 : IVec S_ 1 := (fun x v => Host.reduce IntOp.andi x v reducesTo_S4194304x4_S_d0_1 h_S_) main_v6 main_c_1
  let main_v8 : IVec S_ 1 := andi main_v3 main_v7
  main_v8
-- ==== Kernel.lean ====
abbrev S4194304x4 : Shape := ⟨2, ![4194304, 4]⟩
abbrev S4x4194304 : Shape := ⟨2, ![4, 4194304]⟩
abbrev S1x4194304 : Shape := ⟨2, ![1, 4194304]⟩
abbrev S4x65536 : Shape := ⟨2, ![4, 65536]⟩
abbrev S1x65536 : Shape := ⟨2, ![1, 65536]⟩
abbrev S4194304x1 : Shape := ⟨2, ![4194304, 1]⟩

abbrev nBuf : Space → Nat
  | .hbm => 8
  | .vmem => 8
  | .smem => 0
  | _ => 0

abbrev bufTy : (tb : Table) → Fin (tcTables nBuf tb) → BufTy
  | .hbm, ⟨0, _⟩ => ⟨S4194304x4, .f32⟩
  | .hbm, ⟨1, _⟩ => ⟨S4194304x4, .f32⟩
  | .hbm, ⟨2, _⟩ => ⟨S4x4194304, .f32⟩
  | .hbm, ⟨3, _⟩ => ⟨S4x4194304, .f32⟩
  | .hbm, ⟨4, _⟩ => ⟨S1x4194304, .f32⟩
  | .hbm, ⟨5, _⟩ => ⟨S1x4194304, .f32⟩
  | .hbm, ⟨6, _⟩ => ⟨S4194304x1, .f32⟩
  | .hbm, ⟨7, _⟩ => ⟨S4194304x1, .f32⟩
  | .local _ .vmem, ⟨0, _⟩ => ⟨S4x65536, .f32⟩
  | .local _ .vmem, ⟨1, _⟩ => ⟨S4x65536, .f32⟩
  | .local _ .vmem, ⟨2, _⟩ => ⟨S4x65536, .f32⟩
  | .local _ .vmem, ⟨3, _⟩ => ⟨S4x65536, .f32⟩
  | .local _ .vmem, ⟨4, _⟩ => ⟨S1x65536, .f32⟩
  | .local _ .vmem, ⟨5, _⟩ => ⟨S1x65536, .f32⟩
  | .local _ .vmem, ⟨6, _⟩ => ⟨S1x65536, .f32⟩
  | .local _ .vmem, ⟨7, _⟩ => ⟨S1x65536, .f32⟩
  | _, _ => ⟨S4194304x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4194304x4_S4x4194304_1_0 : S4194304x4.Transposes [1, 0] S4x4194304
  inb_S4x65536_S1x65536_0_0 : ∀ a, (![0, 0] : Fin 2 → Nat) a + S1x65536.size a ≤ S4x65536.size a
  h_S1x65536 : 0 < S1x65536.numel
  shapeCasts_S1x65536_S1x65536 : S1x65536.ShapeCasts S1x65536
  inb_S4x65536_S1x65536_1_0 : ∀ a, (![1, 0] : Fin 2 → Nat) a + S1x65536.size a ≤ S4x65536.size a
  inb_S4x65536_S1x65536_2_0 : ∀ a, (![2, 0] : Fin 2 → Nat) a + S1x65536.size a ≤ S4x65536.size a
  inb_S4x65536_S1x65536_3_0 : ∀ a, (![3, 0] : Fin 2 → Nat) a + S1x65536.size a ≤ S4x65536.size a
  inb_S1x65536_S1x65536_0_0 : ∀ a, (![0, 0] : Fin 2 → Nat) a + S1x65536.size a ≤ S1x65536.size a
  transposes_S1x4194304_S4194304x1_1_0 : S1x4194304.Transposes [1, 0] S4194304x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x65536.size a ≤ S4x4194304.size a
  hwx0_0 : ∀ i : grid0.Coords, EltTy.bits .f32 = 32 ∨ (Rect.block (s := S4x4194304) S4x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x65536.size a ≤ S4x4194304.size a
  hwx0_1 : ∀ i : grid0.Coords, EltTy.bits .f32 = 32 ∨ (Rect.block (s := S4x4194304) S4x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x65536.size a ≤ S1x4194304.size a
  hwx0_2 : ∀ i : grid0.Coords, EltTy.bits .f32 = 32 ∨ (Rect.block (s := S1x4194304) S1x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x65536.size a ≤ S1x4194304.size a
  hwx0_3 : ∀ i : grid0.Coords, EltTy.bits .f32 = 32 ∨ (Rect.block (s := S1x4194304) S1x65536.size (cc0_transform_3 i) (hinb0_3 i)).WholeWords (EltTy.packing .f32)

variable [Facts₀]

abbrev win0_0 : Pipeline.Window sig grid0 :=
  Pipeline.Window.ofSpec (Memref.whole main_v0) S4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x65536.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x65536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x4 : Shape := ⟨2, ![4194304, 4]⟩
abbrev S_ : Shape := ⟨0, ![]⟩
abbrev S4194304x1 : Shape := ⟨2, ![4194304, 1]⟩

abbrev nBuf : Space → Nat
  | .hbm => 40
  | .vmem => 0
  | .smem => 0
  | _ => 0

abbrev bufTy : (tb : Table) → Fin (tcTables nBuf tb) → BufTy
  | .hbm, ⟨0, _⟩ => ⟨S4194304x4, .f32⟩
  | .hbm, ⟨1, _⟩ => ⟨S4194304x4, .f32⟩
  | .hbm, ⟨2, _⟩ => ⟨S4194304x4, .f32⟩
  | .hbm, ⟨3, _⟩ => ⟨S_, .f32⟩
  | .hbm, ⟨4, _⟩ => ⟨S4194304x4, .f32⟩
  | .hbm, ⟨5, _⟩ => ⟨S4194304x4, .f32⟩
  | .hbm, ⟨6, _⟩ => ⟨S4194304x4, .f32⟩
  | .hbm, ⟨7, _⟩ => ⟨S4194304x4, .f32⟩
  | .hbm, ⟨8, _⟩ => ⟨S_, .f32⟩
  | .hbm, ⟨9, _⟩ => ⟨S4194304x4, .f32⟩
  | .hbm, ⟨10, _⟩ => ⟨S4194304x4, .f32⟩
  | .hbm, ⟨11, _⟩ => ⟨S_, .f32⟩
  | .hbm, ⟨12, _⟩ => ⟨S4194304x4, .f32⟩
  | .hbm, ⟨13, _⟩ => ⟨S4194304x4, .f32⟩
  | .hbm, ⟨14, _⟩ => ⟨S4194304x4, .f32⟩
  | .hbm, ⟨15, _⟩ => ⟨S4194304x1, .f32⟩
  | .hbm, ⟨16, _⟩ => ⟨S4194304x1, .f32⟩
  | .hbm, ⟨17, _⟩ => ⟨S4194304x1, .f32⟩
  | .hbm, ⟨18, _⟩ => ⟨S4194304x1, .f32⟩
  | .hbm, ⟨19, _⟩ => ⟨S4194304x1, .f32⟩
  | .hbm, ⟨20, _⟩ => ⟨S4194304x1, .f32⟩
  | .hbm, ⟨21, _⟩ => ⟨S4194304x1, .f32⟩
  | .hbm, ⟨22, _⟩ => ⟨S4194304x1, .f32⟩
  | .hbm, ⟨23, _⟩ => ⟨S4194304x1, .f32⟩
  | .hbm, ⟨24, _⟩ => ⟨S4194304x1, .f32⟩
  | .hbm, ⟨25, _⟩ => ⟨S4194304x1, .f32⟩
  | .hbm, ⟨26, _⟩ => ⟨S4194304x1, .f32⟩
  | .hbm, ⟨27, _⟩ => ⟨S4194304x1, .f32⟩
  | .hbm, ⟨28, _⟩ => ⟨S4194304x1, .f32⟩
  | .hbm, ⟨29, _⟩ => ⟨S4194304x1, .f32⟩
  | .hbm, ⟨30, _⟩ => ⟨S4194304x1, .f32⟩
  | .hbm, ⟨31, _⟩ => ⟨S4194304x1, .f32⟩
  | .hbm, ⟨32, _⟩ => ⟨S4194304x1, .f32⟩
  | .hbm, ⟨33, _⟩ => ⟨S4194304x1, .f32⟩
  | .hbm, ⟨34, _⟩ => ⟨S4194304x1, .f32⟩
  | .hbm, ⟨35, _⟩ => ⟨S4194304x1, .f32⟩
  | .hbm, ⟨36, _⟩ => ⟨S4194304x1, .f32⟩
  | .hbm, ⟨37, _⟩ => ⟨S4194304x1, .f32⟩
  | .hbm, ⟨38, _⟩ => ⟨S4194304x1, .f32⟩
  | .hbm, ⟨39, _⟩ => ⟨S4194304x1, .f32⟩
  | _, _ => ⟨S4194304x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]

class Facts₀ : Prop where
  bcast_S_S4194304x4 : S_.BroadcastsInDim S4194304x4 (![] : Fin 0 → Fin S4194304x4.rank)
  slices_S4194304x4_S4194304x1_0_0 : S4194304x4.Slices ![0, 0] S4194304x1
  slices_S4194304x4_S4194304x1_0_1 : S4194304x4.Slices ![0, 1] S4194304x1
  slices_S4194304x4_S4194304x1_0_2 : S4194304x4.Slices ![0, 2] S4194304x1
  slices_S4194304x4_S4194304x1_0_3 : S4194304x4.Slices ![0, 3] S4194304x1

variable [Facts₀]

class Facts : Prop extends Facts₀ where

variable [Facts]
-- ==== Proof.Comparator.lean ====
/-
  The mathematics both programs compute: a 4-bit magnitude comparator on spike rows, written with the arithmetic forms
  of the logic gates.

  For two bits a, b (any floats, in fact: nothing below uses that they are 0 or 1)
      NOT x     = 1 − x
      XOR a b   = (a + b) − (2·a)·b
      AND x y   = x·y
      OR x y    = (x + y) − x·y
  and, bit by bit, eq = NOT (XOR a b), gt = AND a (NOT b).  For words a = a₃a₂a₁a₀, b = b₃b₂b₁b₀ (most significant bit
  first)
      a > b  =  OR (OR (OR gt₃ (eq₃·gt₂)) ((eq₃·eq₂)·gt₁)) (((eq₃·eq₂)·eq₁)·gt₀)
      a = b  =  ((eq₃·eq₂)·eq₁)·eq₀.
  Every operation is taken in exactly this grouping on both sides, so the two programs agree operation by operation
  and no law of arithmetic is needed: the definitions are stated for any float instance.

  Word r of an array A of shape [N, 4] has its bits at A(r, 0), …, A(r, 3); the results are the columns [N, 1] whose
  entry (r, 0) is the comparison of word r of A with word r of B.
-/
import Idealize.ShloMosaic.PureOps
import Idealize.ShloMosaic.Lib.ValueIdx

noncomputable section

namespace Cert.Comparator

open Idealize.ShloMosaic Idealize.ShloMosaic.ValueIdx

variable {F : FTy → Type} [FloatOps F]

/-- The float 1 (its f32 word; never evaluated). -/
def one : F .f32 := FloatOps.ofBits .f32 0x3F800000#32
/-- The float 2. -/
def two : F .f32 := FloatOps.ofBits .f32 0x40000000#32

/-- NOT (XOR a b) = 1 − ((a + b) − (2·a)·b): the two bits are equal. -/
def bitEq (a b : F .f32) : F .f32 :=
  FloatOps.subf one (FloatOps.subf (FloatOps.addf a b) (FloatOps.mulf (FloatOps.mulf two a) b))

/-- AND a (NOT b) = a·(1 − b): bit a is set and bit b is not. -/
def bitGt (a b : F .f32) : F .f32 := FloatOps.mulf a (FloatOps.subf one b)

/-- OR x y = (x + y) − x·y. -/
def gateOr (x y : F .f32) : F .f32 := FloatOps.subf (FloatOps.addf x y) (FloatOps.mulf x y)

/-- a₃a₂a₁a₀ > b₃b₂b₁b₀: some bit of a exceeds b's with all higher bits equal. -/
def wordGt (a3 a2 a1 a0 b3 b2 b1 b0 : F .f32) : F .f32 :=
  gateOr
    (gateOr
      (gateOr (bitGt a3 b3) (FloatOps.mulf (bitEq a3 b3) (bitGt a2 b2)))
      (FloatOps.mulf (FloatOps.mulf (bitEq a3 b3) (bitEq a2 b2)) (bitGt a1 b1)))
    (FloatOps.mulf (FloatOps.mulf (FloatOps.mulf (bitEq a3 b3) (bitEq a2 b2)) (bitEq a1 b1)) (bitGt a0 b0))

/-- a₃a₂a₁a₀ = b₃b₂b₁b₀: all four bits equal. -/
def wordEq (a3 a2 a1 a0 b3 b2 b1 b0 : F .f32) : F .f32 :=
  FloatOps.mulf (FloatOps.mulf (FloatOps.mulf (bitEq a3 b3) (bitEq a2 b2)) (bitEq a1 b1)) (bitEq a0 b0)

/-- N words of four bits. -/
abbrev Words : Shape := ⟨2, ![4194304, 4]⟩
/-- One result per word, as a column. -/
abbrev Column : Shape := ⟨2, ![4194304, 1]⟩

/-- Word r of A exceeds word r of B. -/
def gtAt (A B : Words.Idx → F .f32) (r : Fin 4194304) : F .f32 :=
  wordGt (A (ix2 r (0 : Fin 4))) (A (ix2 r (1 : Fin 4))) (A (ix2 r (2 : Fin 4))) (A (ix2 r (3 : Fin 4)))
    (B (ix2 r (0 : Fin 4))) (B (ix2 r (1 : Fin 4))) (B (ix2 r (2 : Fin 4))) (B (ix2 r (3 : Fin 4)))

/-- Word r of A equals word r of B. -/
def eqAt (A B : Words.Idx → F .f32) (r : Fin 4194304) : F .f32 :=
  wordEq (A (ix2 r (0 : Fin 4))) (A (ix2 r (1 : Fin 4))) (A (ix2 r (2 : Fin 4))) (A (ix2 r (3 : Fin 4)))
    (B (ix2 r (0 : Fin 4))) (B (ix2 r (1 : Fin 4))) (B (ix2 r (2 : Fin 4))) (B (ix2 r (3 : Fin 4)))

/-- The column of "A's word exceeds B's". -/
def gtColumn (A B : Words.Idx → F .f32) : Column.Idx → F .f32 := fun i => gtAt A B (i 0)

/-- The column of "A's word equals B's". -/
def eqColumn (A B : Words.Idx → F .f32) : Column.Idx → F .f32 := fun i => eqAt A B (i 0)

end Cert.Comparator

end
-- ==== Proof.ReferenceReads.lean ====
/-
  The reference, read at an index.  Its program forms, for all four bit columns at once,
      eq = 1 − ((A + B) − (2·A)·B)   and   gt = A·(1 − B)        (arrays [N, 4]),
  slices out the columns eq₃ … eq₀, gt₃ … gt₀ (arrays [N, 1]) and combines them with the products and ORs of the
  comparator.  An entry (r, 0) of a column slice q is entry (r, q) of the sliced array, so entry (r, 0) of each result
  is the comparator's word comparison of the bits A(r, 0 … 3), B(r, 0 … 3): the specification's columns.
-/
import proofs.«133241_j76312978916078_1_alg».proof.Proof.Gen.ReferenceIdeal.Read
import proofs.«133241_j76312978916078_1_alg».proof.Proof.Comparator
import Idealize.ShloMosaic.Lib.ValueIdx

noncomputable section

namespace Cert.ReferenceIdeal.RefValue

open Cert.ReferenceIdeal Cert.ReferenceIdeal.Read Idealize.ShloMosaic Idealize.ShloMosaic.ValueIdx Cert.Comparator

variable {F : FTy → Type} [FloatOps F]

/-! ## Entry (r, 0) of the column slice q is entry (r, q) of the sliced array -/

theorem eqcol0 (r : Fin 4194304) : idx_main_v10 (ix2 r (0 : Fin 1)) = ix2 r (0 : Fin 4) := by
  funext a; match a with | ⟨0, _⟩ => rfl | ⟨1, _⟩ => rfl
theorem eqcol1 (r : Fin 4194304) : idx_main_v11 (ix2 r (0 : Fin 1)) = ix2 r (1 : Fin 4) := by
  funext a; match a with | ⟨0, _⟩ => rfl | ⟨1, _⟩ => rfl
theorem eqcol2 (r : Fin 4194304) : idx_main_v12 (ix2 r (0 : Fin 1)) = ix2 r (2 : Fin 4) := by
  funext a; match a with | ⟨0, _⟩ => rfl | ⟨1, _⟩ => rfl
theorem eqcol3 (r : Fin 4194304) : idx_main_v13 (ix2 r (0 : Fin 1)) = ix2 r (3 : Fin 4) := by
  funext a; match a with | ⟨0, _⟩ => rfl | ⟨1, _⟩ => rfl
theorem gtcol0 (r : Fin 4194304) : idx_main_v14 (ix2 r (0 : Fin 1)) = ix2 r (0 : Fin 4) := by
  funext a; match a with | ⟨0, _⟩ => rfl | ⟨1, _⟩ => rfl
theorem gtcol1 (r : Fin 4194304) : idx_main_v15 (ix2 r (0 : Fin 1)) = ix2 r (1 : Fin 4) := by
  funext a; match a with | ⟨0, _⟩ => rfl | ⟨1, _⟩ => rfl
theorem gtcol2 (r : Fin 4194304) : idx_main_v16 (ix2 r (0 : Fin 1)) = ix2 r (2 : Fin 4) := by
  funext a; match a with | ⟨0, _⟩ => rfl | ⟨1, _⟩ => rfl
theorem gtcol3 (r : Fin 4194304) : idx_main_v17 (ix2 r (0 : Fin 1)) = ix2 r (3 : Fin 4) := by
  funext a; match a with | ⟨0, _⟩ => rfl | ⟨1, _⟩ => rfl

/-! ## The two results -/

/-- The first result is the column "word of A exceeds word of B". -/
theorem gt_eq (A B : (⟨S4194304x4, .f32⟩ : BufTy).Contents (Elt F)) :
    val_main_v31 (F := F) A B = gtColumn A B := by
  funext i
  obtain ⟨r, z, rfl⟩ : ∃ (r : Fin 4194304) (z : Fin 1), i = ix2 r z := ⟨i 0, i 1, eq_ix2 i⟩
  obtain rfl : z = 0 := Subsingleton.elim _ _
  simp only [val_main_v31_apply, val_main_v30_apply, val_main_v29_apply, val_main_v28_apply, val_main_v27_apply,
    val_main_v26_apply, val_main_v25_apply, val_main_v24_apply, val_main_v23_apply, val_main_v22_apply,
    val_main_v21_apply, val_main_v20_apply, val_main_v19_apply, val_main_v18_apply, val_main_v17_apply,
    val_main_v16_apply, val_main_v15_apply, val_main_v14_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply,
    val_main_v0_apply, val_main_cst_apply, val_main_cst_0_apply, val_main_cst_1_apply,
    eqcol0, eqcol1, eqcol2, gtcol0, gtcol1, gtcol2, gtcol3]
  rfl

/-- The second result is the column "word of A equals word of B". -/
theorem eq_eq (A B : (⟨S4194304x4, .f32⟩ : BufTy).Contents (Elt F)) :
    val_main_v34 (F := F) A B = eqColumn A B := by
  funext i
  obtain ⟨r, z, rfl⟩ : ∃ (r : Fin 4194304) (z : Fin 1), i = ix2 r z := ⟨i 0, i 1, eq_ix2 i⟩
  obtain rfl : z = 0 := Subsingleton.elim _ _
  simp only [val_main_v34_apply, val_main_v33_apply, val_main_v32_apply, val_main_v13_apply, val_main_v12_apply,
    val_main_v11_apply, val_main_v10_apply, val_main_v6_apply, val_main_v5_apply, val_main_v4_apply,
    val_main_v3_apply, val_main_v2_apply, val_main_v1_apply, val_main_v0_apply, val_main_cst_apply,
    val_main_cst_0_apply, eqcol0, eqcol1, eqcol2, eqcol3]
  rfl

end Cert.ReferenceIdeal.RefValue

end
-- ==== Proof.KernelBlock.lean ====
/-
  What the kernel body leaves in its two output blocks, read at a lane.  A grid point holds a block [4, 65536] of the
  bit planes of A and of B; the body loads the four rows of each, forms eq and gt row by row and combines them as the
  comparator does, and stores one row [1, 65536] per result.  So lane l of the first stored row is the comparator's
  "exceeds" of the words whose bit q sits at (q, l) of the two blocks, and lane l of the second is their "equals".
-/
import proofs.«133241_j76312978916078_1_alg».proof.Proof.Gen.KernelIdeal.Frame
import proofs.«133241_j76312978916078_1_alg».proof.Proof.Comparator
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx Cert.Comparator

variable {F : FTy → Type} [FloatOps F]

theorem hz : (![0, 0] : Fin 2 → Nat) = fun _ => 0 := funext fun a => by fin_cases a <;> rfl

/-! ## A row of a block, loaded whole, at a lane -/

theorem row0 (x : Vec F S4x65536 .f32) (l : Fin 65536) : View.ld x r0_0 (ix2 (0 : Fin 1) l) = x (ix2 (0 : Fin 4) l) :=
  congrArg x (funext fun a => match a with
    | ⟨0, _⟩ => rfl
    | ⟨1, _⟩ => Fin.ext (by show 0 + 1 * l.val = l.val; omega))
theorem row1 (x : Vec F S4x65536 .f32) (l : Fin 65536) : View.ld x r0_1 (ix2 (0 : Fin 1) l) = x (ix2 (1 : Fin 4) l) :=
  congrArg x (funext fun a => match a with
    | ⟨0, _⟩ => rfl
    | ⟨1, _⟩ => Fin.ext (by show 0 + 1 * l.val = l.val; omega))
theorem row2 (x : Vec F S4x65536 .f32) (l : Fin 65536) : View.ld x r0_2 (ix2 (0 : Fin 1) l) = x (ix2 (2 : Fin 4) l) :=
  congrArg x (funext fun a => match a with
    | ⟨0, _⟩ => rfl
    | ⟨1, _⟩ => Fin.ext (by show 0 + 1 * l.val = l.val; omega))
theorem row3 (x : Vec F S4x65536 .f32) (l : Fin 65536) : View.ld x r0_3 (ix2 (0 : Fin 1) l) = x (ix2 (3 : Fin 4) l) :=
  congrArg x (funext fun a => match a with
    | ⟨0, _⟩ => rfl
    | ⟨1, _⟩ => Fin.ext (by show 0 + 1 * l.val = l.val; omega))

/-! ## The two stored rows -/

/-- Lane l of the first output block: the word of the first block's column l exceeds the second's. -/
theorem out_gt_apply (x0 x1 : Vec F S4x65536 .f32) (l : Fin 65536) :
    out0_2 x0 x1 (ix2 (0 : Fin 1) l)
      = wordGt (x0 (ix2 (0 : Fin 4) l)) (x0 (ix2 (1 : Fin 4) l)) (x0 (ix2 (2 : Fin 4) l)) (x0 (ix2 (3 : Fin 4) l))
          (x1 (ix2 (0 : Fin 4) l)) (x1 (ix2 (1 : Fin 4) l)) (x1 (ix2 (2 : Fin 4) l)) (x1 (ix2 (3 : Fin 4) l)) := by
  unfold out0_2
  rw [View.canon_unit_zero hz]
  rw [← row0 x0 l, ← row1 x0 l, ← row2 x0 l, ← row3 x0 l, ← row0 x1 l, ← row1 x1 l, ← row2 x1 l, ← row3 x1 l]
  simp only [k0_pay1, k0_pay2, k0_pay3, k0_pay4, k0_pay5, k0_pay7, k0_pay8, k0_pay9, k0_pay10, k0_pay11, k0_pay12,
    k0_pay13, k0_pay14, k0_pay15, k0_pay16, k0_pay17, shapeCast_self]
  rfl

/-- Lane l of the second output block: the two words are equal. -/
theorem out_eq_apply (x0 x1 : Vec F S4x65536 .f32) (l : Fin 65536) :
    out0_3 x0 x1 (ix2 (0 : Fin 1) l)
      = wordEq (x0 (ix2 (0 : Fin 4) l)) (x0 (ix2 (1 : Fin 4) l)) (x0 (ix2 (2 : Fin 4) l)) (x0 (ix2 (3 : Fin 4) l))
          (x1 (ix2 (0 : Fin 4) l)) (x1 (ix2 (1 : Fin 4) l)) (x1 (ix2 (2 : Fin 4) l)) (x1 (ix2 (3 : Fin 4) l)) := by
  unfold out0_3
  rw [View.canon_unit_zero hz]
  rw [← row0 x0 l, ← row1 x0 l, ← row2 x0 l, ← row3 x0 l, ← row0 x1 l, ← row1 x1 l, ← row2 x1 l, ← row3 x1 l]
  simp only [k0_pay1, k0_pay2, k0_pay3, k0_pay4, k0_pay6, k0_pay7, k0_pay8, k0_pay9, k0_pay11, k0_pay12,
    k0_pay13, k0_pay15, k0_pay16, k0_pay17, shapeCast_self]
  rfl

end Cert.KernelIdeal.BlockValue

end
-- ==== Proof.BitPlanes.lean ====
/-
  The comparator on bit planes.  The kernel works on the transposed arrays: plane q of P = Aᵀ (shape [4, N]) holds
  bit q of every word, P(q, n) = A(n, q), and the results come out as rows [1, N], transposed back to columns at
  the end.  Here: the word comparisons read off the planes, the two transpositions read at an index, and the statement
  that the comparison of the planes of Aᵀ, Bᵀ, transposed back, is the comparison of the words of A, B.
-/
import proofs.«133241_j76312978916078_1_alg».proof.Proof.Comparator
import Idealize.ShloMosaic.Lib.Pipeline.Value
import Idealize.ShloMosaic.Lib.ValueIdx

noncomputable section

namespace Cert.Comparator

open Idealize.ShloMosaic Idealize.ShloMosaic.ValueIdx

variable {F : FTy → Type} [FloatOps F]

/-- The four bit planes of N words. -/
abbrev Planes : Shape := ⟨2, ![4, 4194304]⟩
/-- One result per word, as a row. -/
abbrev Row : Shape := ⟨2, ![1, 4194304]⟩

/-- Word n of the planes P exceeds word n of the planes Q. -/
def gtOfPlanes (P Q : Planes.Idx → F .f32) (n : Fin 4194304) : F .f32 :=
  wordGt (P (ix2 (0 : Fin 4) n)) (P (ix2 (1 : Fin 4) n)) (P (ix2 (2 : Fin 4) n)) (P (ix2 (3 : Fin 4) n))
    (Q (ix2 (0 : Fin 4) n)) (Q (ix2 (1 : Fin 4) n)) (Q (ix2 (2 : Fin 4) n)) (Q (ix2 (3 : Fin 4) n))

/-- Word n of the planes P equals word n of the planes Q. -/
def eqOfPlanes (P Q : Planes.Idx → F .f32) (n : Fin 4194304) : F .f32 :=
  wordEq (P (ix2 (0 : Fin 4) n)) (P (ix2 (1 : Fin 4) n)) (P (ix2 (2 : Fin 4) n)) (P (ix2 (3 : Fin 4) n))
    (Q (ix2 (0 : Fin 4) n)) (Q (ix2 (1 : Fin 4) n)) (Q (ix2 (2 : Fin 4) n)) (Q (ix2 (3 : Fin 4) n))

/-- The row of "P's word exceeds Q's". -/
def gtRow (P Q : Planes.Idx → F .f32) : Row.Idx → F .f32 := fun j => gtOfPlanes P Q (j 1)

/-- The row of "P's word equals Q's". -/
def eqRow (P Q : Planes.Idx → F .f32) : Row.Idx → F .f32 := fun j => eqOfPlanes P Q (j 1)

/-- Plane q of the transposed array at word n is bit q of word n. -/
theorem planes_apply {α : Type} (A : Words.Idx → α) (h : Words.Transposes [1, 0] Planes) (q : Fin 4) (n : Fin 4194304) :
    transpose Planes [1, 0] A h (ix2 q n) = A (ix2 n q) :=
  transpose_apply [1, 0] A h (ix2 q n) (ix2 n q) fun b => match b with | ⟨0, _⟩ => rfl | ⟨1, _⟩ => rfl

/-- A row transposed to a column: entry (r, 0) is entry (0, r). -/
theorem column_apply {α : Type} (X : Row.Idx → α) (h : Row.Transposes [1, 0] Column) (r : Fin 4194304) :
    transpose Column [1, 0] X h (ix2 r (0 : Fin 1)) = X (ix2 (0 : Fin 1) r) :=
  transpose_apply [1, 0] X h (ix2 r (0 : Fin 1)) (ix2 (0 : Fin 1) r) fun b => match b with | ⟨0, _⟩ => rfl | ⟨1, _⟩ => rfl

/-- Comparing the planes of Aᵀ and Bᵀ and transposing the row back gives the column of word comparisons of A and B. -/
theorem gtColumn_of_planes (A B : Words.Idx → F .f32) (h : Words.Transposes [1, 0] Planes) (h' : Row.Transposes [1, 0] Column) :
    transpose Column [1, 0] (gtRow (transpose Planes [1, 0] A h) (transpose Planes [1, 0] B h)) h' = gtColumn A B := by
  funext i
  obtain ⟨r, z, rfl⟩ : ∃ (r : Fin 4194304) (z : Fin 1), i = ix2 r z := ⟨i 0, i 1, eq_ix2 i⟩
  obtain rfl : z = 0 := Subsingleton.elim _ _
  rw [column_apply]
  show gtOfPlanes _ _ r = gtAt A B r
  unfold gtOfPlanes gtAt
  rw [planes_apply A h 0 r, planes_apply A h 1 r, planes_apply A h 2 r, planes_apply A h 3 r,
    planes_apply B h 0 r, planes_apply B h 1 r, planes_apply B h 2 r, planes_apply B h 3 r]

/-- The same for the equality row. -/
theorem eqColumn_of_planes (A B : Words.Idx → F .f32) (h : Words.Transposes [1, 0] Planes) (h' : Row.Transposes [1, 0] Column) :
    transpose Column [1, 0] (eqRow (transpose Planes [1, 0] A h) (transpose Planes [1, 0] B h)) h' = eqColumn A B := by
  funext i
  obtain ⟨r, z, rfl⟩ : ∃ (r : Fin 4194304) (z : Fin 1), i = ix2 r z := ⟨i 0, i 1, eq_ix2 i⟩
  obtain rfl : z = 0 := Subsingleton.elim _ _
  rw [column_apply]
  show eqOfPlanes _ _ r = eqAt A B r
  unfold eqOfPlanes eqAt
  rw [planes_apply A h 0 r, planes_apply A h 1 r, planes_apply A h 2 r, planes_apply A h 3 r,
    planes_apply B h 0 r, planes_apply B h 1 r, planes_apply B h 2 r, planes_apply B h 3 r]

end Cert.Comparator

end
-- ==== Proof.KernelArray.lean ====
/-
  From blocks to arrays.  Grid point t of the 64 works on block column t: lanes 65536·t … 65536·t + 65535 of the bit
  planes of A and B (all four rows) and of the two result rows.  So what point t writes back is block t of ONE
  function of the planes the region finds — the row of word comparisons — and, the 64 blocks covering the rows, each
  result row ends holding that function.
-/
import proofs.«133241_j76312978916078_1_alg».proof.Proof.Gen.KernelIdeal.Frame
import proofs.«133241_j76312978916078_1_alg».proof.Proof.KernelBlock
import proofs.«133241_j76312978916078_1_alg».proof.Proof.BitPlanes
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.Comparator
open Idealize.ShloMosaic.Pipeline (Dat)

variable {F : FTy → Type} [FloatOps F]
variable (m : (ℓ : Loc nD τ sig) → Buf (Elt F) ℓ) (ρ : Dev nD → PrngReg)

/-! ## The block a point works on -/

/-- Over the 64 points: every window's block sits in block row 0, and the four windows share one block column. -/
theorem block_index : ∀ t : Fin cfg0.N,
    win0_0.index t (0 : Fin 2) = 0 ∧ win0_0.index t (1 : Fin 2) = win0_2.index t (1 : Fin 2)
    ∧ win0_1.index t (0 : Fin 2) = 0 ∧ win0_1.index t (1 : Fin 2) = win0_2.index t (1 : Fin 2)
    ∧ win0_2.index t (0 : Fin 2) = 0
    ∧ win0_3.index t (0 : Fin 2) = 0 ∧ win0_3.index t (1 : Fin 2) = win0_2.index t (1 : Fin 2)
    ∧ win0_2.index t (1 : Fin 2) ≤ 63 :=
  (by decide +kernel : ∀ t : Fin grid0.N, _)

/-- Every block column is some point's, for each result row. -/
theorem gt_block_onto : ∀ q : Fin 64, ∃ t : Fin cfg0.N, win0_2.index t = ![0, q.val] :=
  (by decide +kernel : ∀ q : Fin 64, ∃ t : Fin grid0.N, win0_2.index t = ![0, q.val])
theorem eq_block_onto : ∀ q : Fin 64, ∃ t : Fin cfg0.N, win0_3.index t = ![0, q.val] :=
  (by decide +kernel : ∀ q : Fin 64, ∃ t : Fin grid0.N, win0_3.index t = ![0, q.val])

/-- The block of A's planes at point t: entry (q, l) is the planes' entry (q, n), n lane l of the point's block column. -/
theorem planesA_block (c : Dev nD) (t : Fin cfg0.N) (q : Fin 4) (l : Fin 65536) (n : Fin 4194304)
    (hn : n.val = win0_2.index t (1 : Fin 2) * 65536 + l.val) :
    iblk m c 0 t (ix2 q l) = V m c main_v0 (ix2 q n) := by
  obtain ⟨e00, e01, -⟩ := block_index t
  show V m c main_v0 (((cfg0.win 0).blk t).view.emb (ix2 q l)) = V m c main_v0 (ix2 q n)
  have h : ((cfg0.win 0).blk t).view.emb (ix2 q l) = ix2 q n := by
    funext a; apply Fin.ext
    match a with
    | ⟨0, _⟩ => show win0_0.index t (0 : Fin 2) * 4 + 1 * q.val = q.val; omega
    | ⟨1, _⟩ => show win0_0.index t (1 : Fin 2) * 65536 + 1 * l.val = n.val; omega
  rw [h]

/-- The same for B's planes. -/
theorem planesB_block (c : Dev nD) (t : Fin cfg0.N) (q : Fin 4) (l : Fin 65536) (n : Fin 4194304)
    (hn : n.val = win0_2.index t (1 : Fin 2) * 65536 + l.val) :
    iblk m c 1 t (ix2 q l) = V m c main_v1 (ix2 q n) := by
  obtain ⟨-, -, e10, e11, -⟩ := block_index t
  show V m c main_v1 (((cfg0.win 1).blk t).view.emb (ix2 q l)) = V m c main_v1 (ix2 q n)
  have h : ((cfg0.win 1).blk t).view.emb (ix2 q l) = ix2 q n := by
    funext a; apply Fin.ext
    match a with
    | ⟨0, _⟩ => show win0_1.index t (0 : Fin 2) * 4 + 1 * q.val = q.val; omega
    | ⟨1, _⟩ => show win0_1.index t (1 : Fin 2) * 65536 + 1 * l.val = n.val; omega
  rw [h]

/-! ## What a point writes back -/

/-- Lane l of the "exceeds" row a point stores is the comparison of words n of the planes, n lane l of its block column. -/
theorem gt_point (c : Dev nD) (t : Fin cfg0.N) (l : Fin 65536) (n : Fin 4194304)
    (hn : n.val = win0_2.index t (1 : Fin 2) * 65536 + l.val) :
    out0_2 (iblk m c 0 t) (iblk m c 1 t) (ix2 (0 : Fin 1) l) = gtOfPlanes (V m c main_v0) (V m c main_v1) n := by
  refine (BlockValue.out_gt_apply (iblk m c 0 t) (iblk m c 1 t) l).trans ?_
  unfold gtOfPlanes
  rw [planesA_block m c t (0 : Fin 4) l n hn, planesA_block m c t (1 : Fin 4) l n hn,
    planesA_block m c t (2 : Fin 4) l n hn, planesA_block m c t (3 : Fin 4) l n hn,
    planesB_block m c t (0 : Fin 4) l n hn, planesB_block m c t (1 : Fin 4) l n hn,
    planesB_block m c t (2 : Fin 4) l n hn, planesB_block m c t (3 : Fin 4) l n hn]

/-- The same for the "equals" row. -/
theorem eq_point (c : Dev nD) (t : Fin cfg0.N) (l : Fin 65536) (n : Fin 4194304)
    (hn : n.val = win0_2.index t (1 : Fin 2) * 65536 + l.val) :
    out0_3 (iblk m c 0 t) (iblk m c 1 t) (ix2 (0 : Fin 1) l) = eqOfPlanes (V m c main_v0) (V m c main_v1) n := by
  refine (BlockValue.out_eq_apply (iblk m c 0 t) (iblk m c 1 t) l).trans ?_
  unfold eqOfPlanes
  rw [planesA_block m c t (0 : Fin 4) l n hn, planesA_block m c t (1 : Fin 4) l n hn,
    planesA_block m c t (2 : Fin 4) l n hn, planesA_block m c t (3 : Fin 4) l n hn,
    planesB_block m c t (0 : Fin 4) l n hn, planesB_block m c t (1 : Fin 4) l n hn,
    planesB_block m c t (2 : Fin 4) l n hn, planesB_block m c t (3 : Fin 4) l n hn]

/-- WHAT POINT t WRITES BACK to the "exceeds" row is block t of the row of word comparisons of the planes. -/
theorem flushed_gt (c : Dev nD) (t : Fin cfg0.N) :
    (dats m 0 c).flushed 2 t = ((cfg0.win 2).blk t).view.read (Elt F) (gtRow (V m c main_v0) (V m c main_v1)) := by
  show (cfg0.win 2).cut (grid0.coords t) ((dats m 0 c).after 2 t) = _
  rw [after0_2]
  funext j
  obtain ⟨z, l, rfl⟩ : ∃ (z : Fin 1) (l : Fin 65536), j = ix2 z l := ⟨j 0, j 1, eq_ix2 (n0 := 1) (n1 := 65536) j⟩
  obtain rfl : z = 0 := Subsingleton.elim _ _
  show out0_2 (iblk m c 0 t) (iblk m c 1 t) (ix2 (0 : Fin 1) l)
    = gtOfPlanes (V m c main_v0) (V m c main_v1) ((((cfg0.win 2).blk t).view.emb (ix2 (0 : Fin 1) l)) (1 : Fin 2))
  refine gt_point m c t l _ ?_
  show win0_2.index t (1 : Fin 2) * 65536 + 1 * l.val = _
  omega

/-- WHAT POINT t WRITES BACK to the "equals" row is block t of the row of word equalities of the planes. -/
theorem flushed_eq (c : Dev nD) (t : Fin cfg0.N) :
    (dats m 0 c).flushed 3 t = ((cfg0.win 3).blk t).view.read (Elt F) (eqRow (V m c main_v0) (V m c main_v1)) := by
  obtain ⟨-, -, -, -, -, -, e31, -⟩ := block_index t
  show (cfg0.win 3).cut (grid0.coords t) ((dats m 0 c).after 3 t) = _
  rw [after0_3]
  funext j
  obtain ⟨z, l, rfl⟩ : ∃ (z : Fin 1) (l : Fin 65536), j = ix2 z l := ⟨j 0, j 1, eq_ix2 (n0 := 1) (n1 := 65536) j⟩
  obtain rfl : z = 0 := Subsingleton.elim _ _
  show out0_3 (iblk m c 0 t) (iblk m c 1 t) (ix2 (0 : Fin 1) l)
    = eqOfPlanes (V m c main_v0) (V m c main_v1) ((((cfg0.win 3).blk t).view.emb (ix2 (0 : Fin 1) l)) (1 : Fin 2))
  refine eq_point m c t l _ ?_
  show win0_3.index t (1 : Fin 2) * 65536 + 1 * l.val = _
  omega

/-! ## The blocks cover the rows -/

/-- An entry of the "exceeds" row is in point t's block iff each coordinate is in the block's range on its axis. -/
theorem mem_gt_block (t : Fin cfg0.N) (i : S1x4194304.Idx) :
    i ∈ ((cfg0.win 2).blk t).view.set ↔ ∀ a : Fin 2, win0_2.index t a * S1x65536.size a ≤ (i a).val ∧ (i a).val < win0_2.index t a * S1x65536.size a + S1x65536.size a := by
  show i ∈ ((View.whole main_v2_0).slice (win0_2.rect t)).set ↔ _
  rw [View.set_slice_whole, Rect.mem_set_unit]
  exact Iff.rfl

theorem mem_eq_block (t : Fin cfg0.N) (i : S1x4194304.Idx) :
    i ∈ ((cfg0.win 3).blk t).view.set ↔ ∀ a : Fin 2, win0_3.index t a * S1x65536.size a ≤ (i a).val ∧ (i a).val < win0_3.index t a * S1x65536.size a + S1x65536.size a := by
  show i ∈ ((View.whole main_v2_1).slice (win0_3.rect t)).set ↔ _
  rw [View.set_slice_whole, Rect.mem_set_unit]
  exact Iff.rfl

/-- Entry (0, n) is in the block of the point whose block column is n / 65536. -/
theorem covered_gt (i : S1x4194304.Idx) :
    ∃ t : Fin cfg0.N, (cfg0.win 2).flush t = true ∧ i ∈ ((cfg0.win 2).blk t).view.set := by
  have hi0 : (i 0).val < 1 := (i 0).isLt
  have hi1 : (i 1).val < 4194304 := (i 1).isLt
  obtain ⟨t, ht⟩ := gt_block_onto ⟨(i 1).val / 65536, by omega⟩
  have q0 : win0_2.index t (0 : Fin 2) = 0 := congrFun ht 0
  have q1 : win0_2.index t (1 : Fin 2) = (i 1).val / 65536 := congrFun ht 1
  refine ⟨t, flush0_2 t, ?_⟩
  rw [mem_gt_block]
  intro a
  match a with
  | ⟨0, _⟩ => show win0_2.index t (0 : Fin 2) * 1 ≤ (i 0).val ∧ (i 0).val < win0_2.index t (0 : Fin 2) * 1 + 1; omega
  | ⟨1, _⟩ => show win0_2.index t (1 : Fin 2) * 65536 ≤ (i 1).val ∧ (i 1).val < win0_2.index t (1 : Fin 2) * 65536 + 65536; omega

theorem covered_eq (i : S1x4194304.Idx) :
    ∃ t : Fin cfg0.N, (cfg0.win 3).flush t = true ∧ i ∈ ((cfg0.win 3).blk t).view.set := by
  have hi0 : (i 0).val < 1 := (i 0).isLt
  have hi1 : (i 1).val < 4194304 := (i 1).isLt
  obtain ⟨t, ht⟩ := eq_block_onto ⟨(i 1).val / 65536, by omega⟩
  have q0 : win0_3.index t (0 : Fin 2) = 0 := congrFun ht 0
  have q1 : win0_3.index t (1 : Fin 2) = (i 1).val / 65536 := congrFun ht 1
  refine ⟨t, flush0_3 t, ?_⟩
  rw [mem_eq_block]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 65536 ≤ (i 1).val ∧ (i 1).val < win0_3.index t (1 : Fin 2) * 65536 + 65536; omega

/-! ## The two rows after the region -/

/-- The "exceeds" row ends holding the word comparisons of the planes the region found. -/
theorem final_gt (c : Dev nD) : (dats m 0 c).arrAt 2 cfg0.N = gtRow (V m c main_v0) (V m c main_v1) :=
  (dats m 0 c).arrAt_eq_of_cover 2 (gtRow (V m c main_v0) (V m c main_v1)) (fun t _ => flushed_gt m c t) covered_gt

/-- The "equals" row ends holding the word equalities of the planes the region found. -/
theorem final_eq (c : Dev nD) : (dats m 0 c).arrAt 3 cfg0.N = eqRow (V m c main_v0) (V m c main_v1) :=
  (dats m 0 c).arrAt_eq_of_cover 3 (eqRow (V m c main_v0) (V m c main_v1)) (fun t _ => flushed_eq m c t) covered_eq

end Cert.KernelIdeal.ArrayValue

end
-- ==== Proof.KernelRun.lean ====
/-
  The kernel's program, read.  Before the region the host transposes A and B to bit planes; the region leaves the two
  result rows (the word comparisons of the planes it found); after it the host transposes each row to a column.
  Put together: every run ends with the first result at the column "A's word exceeds B's" and the second at the column
  "A's word equals B's", of the arguments as launched, and leaves the arguments unchanged.
-/
import proofs.«133241_j76312978916078_1_alg».proof.Proof.Gen.KernelIdeal.Frame
import proofs.«133241_j76312978916078_1_alg».proof.Proof.KernelArray
import proofs.«133241_j76312978916078_1_alg».proof.Proof.BitPlanes
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.SL.Sem
open Idealize.ShloMosaic.ValueIdx Cert.Comparator
open Idealize.ShloMosaic.Pipeline (Dat)

variable {F : FTy → Type} [FloatOps F]
variable (m : (ℓ : Loc nD τ sig) → Buf (Elt F) ℓ) (ρ : Dev nD → PrngReg)

/-! ## The planes the region finds -/

/-- The first operand of the region is A transposed. -/
theorem planesA (c : Dev nD) : (V m c main_v0 : S4x4194304.Idx → F .f32)
    = transpose S4x4194304 [1, 0] (m ((c.tc : Thread nD τ).loc main_arg0)) transposes_S4194304x4_S4x4194304_1_0 := by
  show StableHlo.after hostOps0 (fun b => m (c, b)) (Proc.devRef .tc main_v0) = _
  after_results

/-- The second operand of the region is B transposed. -/
theorem planesB (c : Dev nD) : (V m c main_v1 : S4x4194304.Idx → F .f32)
    = transpose S4x4194304 [1, 0] (m ((c.tc : Thread nD τ).loc main_arg1)) transposes_S4194304x4_S4x4194304_1_0 := by
  show StableHlo.after hostOps0 (fun b => m (c, b)) (Proc.devRef .tc main_v1) = _
  after_results

/-! ## The columns the host leaves after the region -/

/-- The first result: the "exceeds" row transposed, the column of word comparisons of A and B. -/
theorem column_gt (c : Dev nD) :
    (Pipeline.afterTail₀ cfgs (dats m) 0 (V0 m) [hostOps1] c main_v3 : S4194304x1.Idx → F .f32)
      = gtColumn (m ((c.tc : Thread nD τ).loc main_arg0)) (m ((c.tc : Thread nD τ).loc main_arg1)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2_0)
      = gtRow (V m c main_v0) (V m c main_v1) :=
    (Pipeline.withArrays_arr spec0 launch0.win.arr_inj c _ _ 2).trans (ArrayValue.final_gt m c)
  rw [e, planesA m c, planesB m c]
  exact gtColumn_of_planes _ _ _ _

/-- The second result: the "equals" row transposed, the column of word equalities of A and B. -/
theorem column_eq (c : Dev nD) :
    (Pipeline.afterTail₀ cfgs (dats m) 0 (V0 m) [hostOps1] c main_v4 : S4194304x1.Idx → F .f32)
      = eqColumn (m ((c.tc : Thread nD τ).loc main_arg0)) (m ((c.tc : Thread nD τ).loc main_arg1)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2_1)
      = eqRow (V m c main_v0) (V m c main_v1) :=
    (Pipeline.withArrays_arr spec0 launch0.win.arr_inj c _ _ 3).trans (ArrayValue.final_eq m c)
  rw [e, planesA m c, planesB m c]
  exact eqColumn_of_planes _ _ _ _

/-! ## The run -/

/-- Every weakly fair execution terminates with the two results at the comparator's columns of the arguments as
    launched, the arguments unchanged. -/
theorem run : θ_run defs (onTc (τ := τ) (main (F := F))) ⟨m, fun _ => 0, ρ⟩ fun r => ∀ c : Dev nD,
      r.2.mem ((c.tc : Thread nD τ).loc main_v3)
          = gtColumn (m ((c.tc : Thread nD τ).loc main_arg0)) (m ((c.tc : Thread nD τ).loc main_arg1))
      ∧ r.2.mem ((c.tc : Thread nD τ).loc main_v4)
          = eqColumn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (column_gt m c),
       ((h c).2 main_v4 (Pipeline.mem_restRefs_of main_v4 (by decide) (by decide))).trans (column_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RunValue

end
-- ==== Proof.lean ====
/-
  A 4-bit magnitude comparator on spike rows, against its jnp reference, over the extended reals.

  Both programs compute, for every word r, the arithmetic forms of the logic gates on the bits A(r, 0 … 3), B(r, 0 … 3):
  eq = 1 − ((a + b) − (2·a)·b) and gt = a·(1 − b) bit by bit, then "a > b" as the chain of ORs
  (x + y) − x·y over gt₃, eq₃·gt₂, (eq₃·eq₂)·gt₁, ((eq₃·eq₂)·eq₁)·gt₀, and "a = b" as ((eq₃·eq₂)·eq₁)·eq₀
  (Proof/Comparator.lean).  The reference does it on the arrays [N, 4] and slices the bit columns out
  (Proof/ReferenceReads.lean); the kernel transposes to bit planes [4, N], runs 64 grid points over blocks of 65536
  words, each storing one lane-dense row per result (Proof/KernelBlock.lean, Proof/KernelArray.lean), and transposes the
  two rows back to columns (Proof/BitPlanes.lean, Proof/KernelRun.lean).  The two sides apply the same operations in the
  same grouping to the same entries, so the results are equal with no law of arithmetic and for every extended-real
  input: the precondition is not used by the value claim.

  The three frames: the two kernels' are the generated frame certificates, the reference's is its generated run with
  the results dropped.  The idealization rewrote no operation, so there is nothing to preserve.
-/
import proofs.«133241_j76312978916078_1_alg».proof.Defs
import proofs.«133241_j76312978916078_1_alg».proof.Proof.Gen.Kernel
import proofs.«133241_j76312978916078_1_alg».proof.Proof.Gen.Kernel.Skeleton
import proofs.«133241_j76312978916078_1_alg».proof.Proof.Gen.Kernel.Launch
import proofs.«133241_j76312978916078_1_alg».proof.Proof.Gen.Kernel.Points
import proofs.«133241_j76312978916078_1_alg».proof.Proof.Gen.Kernel.Frame
import proofs.«133241_j76312978916078_1_alg».proof.Proof.Gen.KernelIdeal
import proofs.«133241_j76312978916078_1_alg».proof.Proof.Gen.KernelIdeal.Skeleton
import proofs.«133241_j76312978916078_1_alg».proof.Proof.Gen.KernelIdeal.Launch
import proofs.«133241_j76312978916078_1_alg».proof.Proof.Gen.KernelIdeal.Points
import proofs.«133241_j76312978916078_1_alg».proof.Proof.Gen.KernelIdeal.Frame
import proofs.«133241_j76312978916078_1_alg».proof.Proof.Gen.ReferenceIdeal
import proofs.«133241_j76312978916078_1_alg».proof.Proof.Gen.Pre_finite_inputs
import proofs.«133241_j76312978916078_1_alg».proof.Proof.Gen.ReferenceIdeal.Run
import proofs.«133241_j76312978916078_1_alg».proof.Proof.Gen.ReferenceIdeal.Read
import proofs.«133241_j76312978916078_1_alg».proof.Proof.Comparator
import proofs.«133241_j76312978916078_1_alg».proof.Proof.ReferenceReads
import proofs.«133241_j76312978916078_1_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and keeps its arguments: its generated frame. -/
theorem frame_kernel : Cert.frame_Kernel :=
  fun m ρ _ => Cert.Kernel.Gen.frame m ρ

/-- The idealized kernel runs and keeps its arguments: its generated frame. -/
theorem frame_kernelIdeal : Cert.frame_KernelIdeal :=
  fun m ρ _ => Cert.KernelIdeal.Gen.frame m ρ

/-- The reference runs and keeps its arguments: its generated run, the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- Both programs end with the comparator's two columns of the (agreeing) arguments. -/
theorem algebraic : Cert.algebraic_KernelIdeal_ReferenceIdeal := by
  intro m ρ m' ρ' _ hagree
  refine ⟨_, _, Cert.KernelIdeal.RunValue.run (F := Ideal) m ρ, ?_⟩
  refine (θ_run Cert.ReferenceIdeal.defs _ _).mono (fun _ h c => ?_)
    (Cert.ReferenceIdeal.Value.run (F := Ideal) m' ρ')
  obtain ⟨hgt, heq, ha0, ha1⟩ := h c
  refine ⟨hgt.trans ?_, heq.trans ?_, ha0, ha1⟩
  · rw [Cert.ReferenceIdeal.Read.val_main_v31_eq, Cert.ReferenceIdeal.RefValue.gt_eq, (hagree c).1, (hagree c).2]
  · rw [Cert.ReferenceIdeal.Read.val_main_v34_eq, Cert.ReferenceIdeal.RefValue.eq_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
